-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 17
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S1x4096, .f32⟩
  | .hbm, ⟨15, _⟩ => ⟨S4096x1024, .f32⟩
  | .hbm, ⟨16, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S2048x4096, .f32⟩
  | .hbm, ⟨13, _⟩ => ⟨S4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KFrame.lean ====
/-
  The frame of the program `Kernel`: it runs to the end, faults nowhere, and leaves its eleven argument arrays as
  they were — together with what each of its two result arrays holds at the end.

  @main first joins the four gate weight matrices side by side into one [2048, 4096] matrix (rounded to bf16) and
  the four gate biases end to end into one [1, 4096] row; none of these four host operations writes an argument.
  The region then walks the 16 batch tiles of 256 rows. At a tile the body reads the tile's rows of x, h and c,
  the whole joined weight matrix (as its upper and lower halves) and the whole bias row, and overwrites the
  tile's rows of the two results; each result tile is therefore ONE function of the blocks read at the tile
  (`hTile`, `cTile`), nothing is kept from tile to tile, and no input buffer is written.
-/
import proofs.«146667_j14027363189407_2_alg».proof.Proof.Gen.Kernel.Launch
import proofs.«146667_j14027363189407_2_alg».proof.Proof.Gen.Kernel.Skeleton
import proofs.«146667_j14027363189407_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What each buffer of core `c` holds when the region is entered: the launch contents after the four joining
    operations. -/
abbrev V (c : Dev nD) (b : Ref sig .tc) : Buf (Elt F) ((c : Thread nD τ).loc b) := StableHlo.after hostOps0 (fun b => m (c, b)) b

/-- The joining operations allocate nothing. -/
theorem hostOps0_fresh : (hostOps0 : List (HloOp τ sig (Elt F))).Forall fun op => op.fresh = ∅ := by
  simp only [List.Forall]; repeat' constructor

/-- @main is the joining operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the joining operations writes is found by the region as launched. The operations write the
    joined weights, their bf16 rounding, the joined biases and the bias row: four buffers that are no argument. -/
theorem V_unwritten (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) := V_unwritten m c _ (by decide) (by decide) (by decide) (by decide)
theorem V_main_arg1 (c : Dev nD) : V m c main_arg1 = m ((c : Thread nD τ).loc main_arg1) := V_unwritten m c _ (by decide) (by decide) (by decide) (by decide)
theorem V_main_arg2 (c : Dev nD) : V m c main_arg2 = m ((c : Thread nD τ).loc main_arg2) := V_unwritten m c _ (by decide) (by decide) (by decide) (by decide)
theorem V_main_arg3 (c : Dev nD) : V m c main_arg3 = m ((c : Thread nD τ).loc main_arg3) := V_unwritten m c _ (by decide) (by decide) (by decide) (by decide)
theorem V_main_arg4 (c : Dev nD) : V m c main_arg4 = m ((c : Thread nD τ).loc main_arg4) := V_unwritten m c _ (by decide) (by decide) (by decide) (by decide)
theorem V_main_arg5 (c : Dev nD) : V m c main_arg5 = m ((c : Thread nD τ).loc main_arg5) := V_unwritten m c _ (by decide) (by decide) (by decide) (by decide)
theorem V_main_arg6 (c : Dev nD) : V m c main_arg6 = m ((c : Thread nD τ).loc main_arg6) := V_unwritten m c _ (by decide) (by decide) (by decide) (by decide)
theorem V_main_arg7 (c : Dev nD) : V m c main_arg7 = m ((c : Thread nD τ).loc main_arg7) := V_unwritten m c _ (by decide) (by decide) (by decide) (by decide)
theorem V_main_arg8 (c : Dev nD) : V m c main_arg8 = m ((c : Thread nD τ).loc main_arg8) := V_unwritten m c _ (by decide) (by decide) (by decide) (by decide)
theorem V_main_arg9 (c : Dev nD) : V m c main_arg9 = m ((c : Thread nD τ).loc main_arg9) := V_unwritten m c _ (by decide) (by decide) (by decide) (by decide)
theorem V_main_arg10 (c : Dev nD) : V m c main_arg10 = m ((c : Thread nD τ).loc main_arg10) := V_unwritten m c _ (by decide) (by decide) (by decide) (by decide)

/-! ## The blocks the body is handed -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every tile, whether the pipeline fetched it there
    or not (the weights and the bias row are fetched at the first tile only, and their block never moves), for any
    proof data over the region-entry arrays whose body leaves the inputs' buffers in place. One statement per input
    window: x, h, c, the joined weights, the bias row. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data over the region-entry arrays, a final state with every window's array at what the data
    computes and every other unscoped buffer as the region found it has the eleven arguments as launched:
    x, h and c are input windows' arrays (an input's array ends as it was at entry), the four weight matrices
    and the four biases bypass the region, and the joining operations wrote none of the eleven. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- So a run to such a state is the frame claim's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body's accesses and what it leaves in the two result tiles -/

/-- A whole 256-row tile (of x, h, c or a result). -/
abbrev rTile : Rect S256x1024 := Rect.unit (s := S256x1024) ![0, 0] S256x1024.size inb_S256x1024_S256x1024_0_0
/-- The upper half of the joined weights: the rows that meet x. -/
abbrev rUpper : Rect S2048x4096 := Rect.unit (s := S2048x4096) ![0, 0] S1024x4096.size inb_S2048x4096_S1024x4096_0_0
/-- The lower half of the joined weights: the rows that meet h. -/
abbrev rLower : Rect S2048x4096 := Rect.unit (s := S2048x4096) ![1024, 0] S1024x4096.size inb_S2048x4096_S1024x4096_1024_0
/-- The whole bias row. -/
abbrev rBias : Rect S1x4096 := Rect.unit (s := S1x4096) ![0, 0] S1x4096.size inb_S1x4096_S1x4096_0_0

/-- The tile of the first result (the new hidden state) after the body, from the blocks it read: its one store,
    of the payload `o · tanh c'`. -/
def hTile (x h cc : Vec F S256x1024 .f32) (w : Vec F S2048x4096 .bf16) (b : Vec F S1x4096 .f32) : Vec F S256x1024 .f32 :=
  View.canon [⟨rTile, k0_pay3 (View.ld x rTile) (View.ld h rTile) (View.ld w rUpper) (View.ld w rLower) (View.ld b rBias) (View.ld cc rTile)⟩]

/-- The tile of the second result (the new cell state) after the body: its one store, of the payload
    `f · c + i · g`. -/
def cTile (x h cc : Vec F S256x1024 .f32) (w : Vec F S2048x4096 .bf16) (b : Vec F S1x4096 .f32) : Vec F S256x1024 .f32 :=
  View.canon [⟨rTile, k0_pay2 (View.ld x rTile) (View.ld h rTile) (View.ld w rUpper) (View.ld w rLower) (View.ld b rBias) (View.ld cc rTile)⟩]

/-- One store through the whole-tile rectangle covers the tile. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 4000000 in
/-- The body on whole staging buffers — the five inputs' at read contents `x`, `h`, `cc`, `w`, `b`, the two
    results' at anything — runs to the continuation holding the inputs' as they were and the results' at
    `hTile` and `cTile` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cc : Vec F S256x1024 .f32) (w : Vec F S2048x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cc
            ∗ owns (c : Thread nD τ) arg4 fullShare w ∗ owns (c : Thread nD τ) arg5 fullShare b
            ∗ owns (c : Thread nD τ) arg6 fullShare (hTile x h cc w b) ∗ owns (c : Thread nD τ) arg7 fullShare (cTile x h cc w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_tile _)
  iexists _; isplitr
  swap; · iexact H6
  ipureintro
  exact View.read_writes_eq_canon _ _ _ (cover_tile _)

/-! ## The pipeline's proof data -/

/-- On core `c`: the arrays as the region finds them; after the body at tile `t` each input's buffer still at its
    block and each result's at its tile function of the five input blocks; nothing kept between tiles beyond the
    scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hTile (iblk m c 0 t) (iblk m c 1 t) (iblk m c 2 t) (iblk m c 3 t) (iblk m c 4 t)
    | ⟨6, _⟩ => cTile (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
/-- The new hidden state's tile at `t`. -/
theorem after5 (c : Dev nD) (t : Fin cfg0.N) : (dats m 0 c).after 5 t = hTile (iblk m c 0 t) (iblk m c 1 t) (iblk m c 2 t) (iblk m c 3 t) (iblk m c 4 t) := by dsimp only [dats]
/-- The new cell state's tile at `t`. -/
theorem after6 (c : Dev nD) (t : Fin cfg0.N) : (dats m 0 c).after 6 t = cTile (iblk m c 0 t) (iblk m c 1 t) (iblk m c 2 t) (iblk m c 3 t) (iblk m c 4 t) := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the inputs' buffers hold their blocks, so the body's triple applies; the invariant and
    the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, faulting nowhere, with
    each window's array at what the proof data computes — an input's as at entry, a result's overwritten tile by
    tile by what the body left — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Tiles

end
-- ==== Proof.KIFrame.lean ====
/-
  The frame of the program `KernelIdeal`: it runs to the end, faults nowhere, and leaves its eleven argument arrays as
  they were — together with what each of its two result arrays holds at the end.

  @main first joins the four gate weight matrices side by side into one [2048, 4096] matrix (rounded to bf16) and
  the four gate biases end to end into one [1, 4096] row; none of these four host operations writes an argument.
  The region then walks the 16 batch tiles of 256 rows. At a tile the body reads the tile's rows of x, h and c,
  the whole joined weight matrix (as its upper and lower halves) and the whole bias row, and overwrites the
  tile's rows of the two results; each result tile is therefore ONE function of the blocks read at the tile
  (`hTile`, `cTile`), nothing is kept from tile to tile, and no input buffer is written.
-/
import proofs.«146667_j14027363189407_2_alg».proof.Proof.Gen.KernelIdeal.Launch
import proofs.«146667_j14027363189407_2_alg».proof.Proof.Gen.KernelIdeal.Skeleton
import proofs.«146667_j14027363189407_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What each buffer of core `c` holds when the region is entered: the launch contents after the four joining
    operations. -/
abbrev V (c : Dev nD) (b : Ref sig .tc) : Buf (Elt F) ((c : Thread nD τ).loc b) := StableHlo.after hostOps0 (fun b => m (c, b)) b

/-- The joining operations allocate nothing. -/
theorem hostOps0_fresh : (hostOps0 : List (HloOp τ sig (Elt F))).Forall fun op => op.fresh = ∅ := by
  simp only [List.Forall]; repeat' constructor

/-- @main is the joining operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the joining operations writes is found by the region as launched. The operations write the
    joined weights, their bf16 rounding, the joined biases and the bias row: four buffers that are no argument. -/
theorem V_unwritten (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) := V_unwritten m c _ (by decide) (by decide) (by decide) (by decide)
theorem V_main_arg1 (c : Dev nD) : V m c main_arg1 = m ((c : Thread nD τ).loc main_arg1) := V_unwritten m c _ (by decide) (by decide) (by decide) (by decide)
theorem V_main_arg2 (c : Dev nD) : V m c main_arg2 = m ((c : Thread nD τ).loc main_arg2) := V_unwritten m c _ (by decide) (by decide) (by decide) (by decide)
theorem V_main_arg3 (c : Dev nD) : V m c main_arg3 = m ((c : Thread nD τ).loc main_arg3) := V_unwritten m c _ (by decide) (by decide) (by decide) (by decide)
theorem V_main_arg4 (c : Dev nD) : V m c main_arg4 = m ((c : Thread nD τ).loc main_arg4) := V_unwritten m c _ (by decide) (by decide) (by decide) (by decide)
theorem V_main_arg5 (c : Dev nD) : V m c main_arg5 = m ((c : Thread nD τ).loc main_arg5) := V_unwritten m c _ (by decide) (by decide) (by decide) (by decide)
theorem V_main_arg6 (c : Dev nD) : V m c main_arg6 = m ((c : Thread nD τ).loc main_arg6) := V_unwritten m c _ (by decide) (by decide) (by decide) (by decide)
theorem V_main_arg7 (c : Dev nD) : V m c main_arg7 = m ((c : Thread nD τ).loc main_arg7) := V_unwritten m c _ (by decide) (by decide) (by decide) (by decide)
theorem V_main_arg8 (c : Dev nD) : V m c main_arg8 = m ((c : Thread nD τ).loc main_arg8) := V_unwritten m c _ (by decide) (by decide) (by decide) (by decide)
theorem V_main_arg9 (c : Dev nD) : V m c main_arg9 = m ((c : Thread nD τ).loc main_arg9) := V_unwritten m c _ (by decide) (by decide) (by decide) (by decide)
theorem V_main_arg10 (c : Dev nD) : V m c main_arg10 = m ((c : Thread nD τ).loc main_arg10) := V_unwritten m c _ (by decide) (by decide) (by decide) (by decide)

/-! ## The blocks the body is handed -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every tile, whether the pipeline fetched it there
    or not (the weights and the bias row are fetched at the first tile only, and their block never moves), for any
    proof data over the region-entry arrays whose body leaves the inputs' buffers in place. One statement per input
    window: x, h, c, the joined weights, the bias row. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data over the region-entry arrays, a final state with every window's array at what the data
    computes and every other unscoped buffer as the region found it has the eleven arguments as launched:
    x, h and c are input windows' arrays (an input's array ends as it was at entry), the four weight matrices
    and the four biases bypass the region, and the joining operations wrote none of the eleven. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- So a run to such a state is the frame claim's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body's accesses and what it leaves in the two result tiles -/

/-- A whole 256-row tile (of x, h, c or a result). -/
abbrev rTile : Rect S256x1024 := Rect.unit (s := S256x1024) ![0, 0] S256x1024.size inb_S256x1024_S256x1024_0_0
/-- The upper half of the joined weights: the rows that meet x. -/
abbrev rUpper : Rect S2048x4096 := Rect.unit (s := S2048x4096) ![0, 0] S1024x4096.size inb_S2048x4096_S1024x4096_0_0
/-- The lower half of the joined weights: the rows that meet h. -/
abbrev rLower : Rect S2048x4096 := Rect.unit (s := S2048x4096) ![1024, 0] S1024x4096.size inb_S2048x4096_S1024x4096_1024_0
/-- The whole bias row. -/
abbrev rBias : Rect S1x4096 := Rect.unit (s := S1x4096) ![0, 0] S1x4096.size inb_S1x4096_S1x4096_0_0

/-- The tile of the first result (the new hidden state) after the body, from the blocks it read: its one store,
    of the payload `o · tanh c'`. -/
def hTile (x h cc : Vec F S256x1024 .f32) (w : Vec F S2048x4096 .bf16) (b : Vec F S1x4096 .f32) : Vec F S256x1024 .f32 :=
  View.canon [⟨rTile, k0_pay3 (View.ld x rTile) (View.ld h rTile) (View.ld w rUpper) (View.ld w rLower) (View.ld b rBias) (View.ld cc rTile)⟩]

/-- The tile of the second result (the new cell state) after the body: its one store, of the payload
    `f · c + i · g`. -/
def cTile (x h cc : Vec F S256x1024 .f32) (w : Vec F S2048x4096 .bf16) (b : Vec F S1x4096 .f32) : Vec F S256x1024 .f32 :=
  View.canon [⟨rTile, k0_pay2 (View.ld x rTile) (View.ld h rTile) (View.ld w rUpper) (View.ld w rLower) (View.ld b rBias) (View.ld cc rTile)⟩]

/-- One store through the whole-tile rectangle covers the tile. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 4000000 in
/-- The body on whole staging buffers — the five inputs' at read contents `x`, `h`, `cc`, `w`, `b`, the two
    results' at anything — runs to the continuation holding the inputs' as they were and the results' at
    `hTile` and `cTile` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cc : Vec F S256x1024 .f32) (w : Vec F S2048x4096 .bf16) (b : Vec F S1x4096 .f32) (K : PUnit → sProp 𝕄) :
    iprop(owns (c : Thread nD τ) arg1 fullShare x ∗ owns (c : Thread nD τ) arg2 fullShare h ∗ owns (c : Thread nD τ) arg3 fullShare cc
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cc
            ∗ owns (c : Thread nD τ) arg4 fullShare w ∗ owns (c : Thread nD τ) arg5 fullShare b
            ∗ owns (c : Thread nD τ) arg6 fullShare (hTile x h cc w b) ∗ owns (c : Thread nD τ) arg7 fullShare (cTile x h cc w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_tile _)
  iexists _; isplitr
  swap; · iexact H6
  ipureintro
  exact View.read_writes_eq_canon _ _ _ (cover_tile _)

/-! ## The pipeline's proof data -/

/-- On core `c`: the arrays as the region finds them; after the body at tile `t` each input's buffer still at its
    block and each result's at its tile function of the five input blocks; nothing kept between tiles beyond the
    scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hTile (iblk m c 0 t) (iblk m c 1 t) (iblk m c 2 t) (iblk m c 3 t) (iblk m c 4 t)
    | ⟨6, _⟩ => cTile (iblk m c 0 t) (iblk m c 1 t) (iblk m c 2 t) (iblk m c 3 t) (iblk m c 4 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
/-- The new hidden state's tile at `t`. -/
theorem after5 (c : Dev nD) (t : Fin cfg0.N) : (dats m 0 c).after 5 t = hTile (iblk m c 0 t) (iblk m c 1 t) (iblk m c 2 t) (iblk m c 3 t) (iblk m c 4 t) := by dsimp only [dats]
/-- The new cell state's tile at `t`. -/
theorem after6 (c : Dev nD) (t : Fin cfg0.N) : (dats m 0 c).after 6 t = cTile (iblk m c 0 t) (iblk m c 1 t) (iblk m c 2 t) (iblk m c 3 t) (iblk m c 4 t) := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the inputs' buffers hold their blocks, so the body's triple applies; the invariant and
    the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, faulting nowhere, with
    each window's array at what the proof data computes — an input's as at entry, a result's overwritten tile by
    tile by what the body left — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Tiles

end
-- ==== Proof.LstmSpec.lean ====
/-
  One step of an LSTM cell over a batch, as a function of the arrays, index by index, on the extended reals.

  With `X`, `H`, `C` the [4096, 1024] input, hidden and cell arrays, `W` the [2048, 4096] matrix whose four
  column blocks of width 1024 are the forget, input, candidate and output gates' weights (rows 0…1023 meeting `X`,
  rows 1024…2047 meeting `H`) and `B` the 4096 biases, the pre-activation of gate column `n` in batch row `r` is

      a r n = Σ_k X(r,k)·W(k,n) + Σ_k H(r,k)·W(1024+k,n) + B n,

  the new cell state is  C'(r,q) = σ(a r q)·C(r,q) + σ(a r (1024+q))·tanh(a r (2048+q)),
  and the new hidden state  H'(r,q) = σ(a r (3072+q))·tanh(C'(r,q)).

  The one law used between the two programs: a sum over the 2048 joined positions of [X | H] is the sum over the
  first 1024 plus the sum over the last 1024 — associativity and commutativity of + alone, so it holds at the
  infinities too and no finiteness of the inputs is needed.
-/
import Idealize.ShloMosaic.PureOps.Ideal
import Idealize.ShloMosaic.Lib.ValueIdx

noncomputable section

namespace Cert.LstmSpec

open Idealize.ShloMosaic Idealize.ShloMosaic.ValueIdx

/-- Batch × features. -/
abbrev SAct : Shape := ⟨2, ![4096, 1024]⟩
/-- Joined input positions × gate columns. -/
abbrev SWts : Shape := ⟨2, ![2048, 4096]⟩

/-- Row `k` of the half of `W` that meets `X`. -/
def upper (k : Fin 1024) : Fin 2048 := ⟨k.val, by omega⟩
/-- Row `1024 + k` of `W`: the half that meets `H`. -/
def lower (k : Fin 1024) : Fin 2048 := ⟨1024 + k.val, by omega⟩

/-- Column `q` of the forget gate's block. -/
def colF (q : Fin 1024) : Fin 4096 := ⟨q.val, by omega⟩
/-- Column `q` of the input gate's block. -/
def colI (q : Fin 1024) : Fin 4096 := ⟨1024 + q.val, by omega⟩
/-- Column `q` of the candidate's block. -/
def colG (q : Fin 1024) : Fin 4096 := ⟨2048 + q.val, by omega⟩
/-- Column `q` of the output gate's block. -/
def colO (q : Fin 1024) : Fin 4096 := ⟨3072 + q.val, by omega⟩

/-- The pre-activation of gate column `n` in batch row `r`. -/
def preact (X H : SAct.Idx → EReal) (W : SWts.Idx → EReal) (B : Fin 4096 → EReal) (r : Fin 4096) (n : Fin 4096) : EReal :=
  (∑ k : Fin 1024, X (ix2 r k) * W (ix2 (upper k) n)) + (∑ k : Fin 1024, H (ix2 r k) * W (ix2 (lower k) n)) + B n

/-- The new cell state at row `r`, feature `q`. -/
def cellAt (X H C : SAct.Idx → EReal) (W : SWts.Idx → EReal) (B : Fin 4096 → EReal) (r : Fin 4096) (q : Fin 1024) : EReal :=
  Ideal.logistic (preact X H W B r (colF q)) * C (ix2 r q)
    + Ideal.logistic (preact X H W B r (colI q)) * Ideal.tanh (preact X H W B r (colG q))

/-- The new hidden state at row `r`, feature `q`. -/
def hiddenAt (X H C : SAct.Idx → EReal) (W : SWts.Idx → EReal) (B : Fin 4096 → EReal) (r : Fin 4096) (q : Fin 1024) : EReal :=
  Ideal.logistic (preact X H W B r (colO q)) * Ideal.tanh (cellAt X H C W B r q)

/-- The new cell state, as an array. -/
def cell (X H C : SAct.Idx → EReal) (W : SWts.Idx → EReal) (B : Fin 4096 → EReal) : SAct.Idx → EReal :=
  fun i => cellAt X H C W B ⟨(i 0).val, (i 0).isLt⟩ ⟨(i 1).val, (i 1).isLt⟩

/-- The new hidden state, as an array. -/
def hidden (X H C : SAct.Idx → EReal) (W : SWts.Idx → EReal) (B : Fin 4096 → EReal) : SAct.Idx → EReal :=
  fun i => hiddenAt X H C W B ⟨(i 0).val, (i 0).isLt⟩ ⟨(i 1).val, (i 1).isLt⟩

theorem cell_ix2 (X H C : SAct.Idx → EReal) (W : SWts.Idx → EReal) (B : Fin 4096 → EReal) (r : Fin 4096) (q : Fin 1024) :
    cell X H C W B (ix2 r q) = cellAt X H C W B r q := rfl

theorem hidden_ix2 (X H C : SAct.Idx → EReal) (W : SWts.Idx → EReal) (B : Fin 4096 → EReal) (r : Fin 4096) (q : Fin 1024) :
    hidden X H C W B (ix2 r q) = hiddenAt X H C W B r q := rfl

/-- A sum over the 2048 joined positions is the sum over the first 1024 plus the sum over the last 1024. -/
theorem sum_joined (f : Fin 2048 → EReal) :
    ∑ k : Fin 2048, f k = (∑ k : Fin 1024, f (upper k)) + ∑ k : Fin 1024, f (lower k) := by
  have e : 1024 + 1024 = 2048 := by norm_num
  calc ∑ k : Fin 2048, f k = ∑ i : Fin (1024 + 1024), f (finCongr e i) := (Equiv.sum_comp (finCongr e) f).symm
    _ = (∑ i : Fin 1024, f (finCongr e (Fin.castAdd 1024 i))) + ∑ i : Fin 1024, f (finCongr e (Fin.natAdd 1024 i)) :=
        Fin.sum_univ_add _
    _ = _ := congrArg₂ (· + ·) (Finset.sum_congr rfl fun _ _ => congrArg f (Fin.ext rfl))
        (Finset.sum_congr rfl fun _ _ => congrArg f (Fin.ext rfl))

end Cert.LstmSpec

end
-- ==== Proof.KIPayload.lean ====
/-
  The body's arithmetic at an index of a tile, at the ideal values.

  Within a tile of 256 batch rows the body forms, for row `p` and gate column `n`, the pre-activation
  Σ_k x(p,k)·wu(k,n) + Σ_k h(p,k)·wl(k,n) + b(0,n) from the two halves `wu`, `wl` of the joined weights (each
  product accumulated into zero, the rounding to bf16 the identity on extended reals, the bias row repeated down the
  tile), cuts it into the four gates' column blocks, and combines them into the new cell and hidden states. When
  the blocks are the arrays read at batch row `r`, these are the specification's `cellAt` and `hiddenAt` at `r`.
-/
import proofs.«146667_j14027363189407_2_alg».proof.Proof.Gen.KernelIdeal.Skeleton
import proofs.«146667_j14027363189407_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.LstmSpec

/-- The tile's matrix product: [256, 1024] × [1024, 4096], contracting the 1024 axis. -/
abbrev tileDot := dot_S256x1024_S1024x4096_S256x4096_1_0_0_1_n_n

theorem lhs_row (j : S256x4096.Idx) (q : tileDot.contr.Idx) : (tileDot.lhsIdx j q 0).val = (j 0).val := by
  unfold DotDims.lhsIdx
  rw [dif_neg (show ¬(0 : Fin S256x1024.rank) ∈ tileDot.lhsBatch by decide), dif_pos (show (0 : Fin S256x1024.rank) ∈ tileDot.lhsNonContracting by decide)]
  rfl
theorem lhs_contr (j : S256x4096.Idx) (q : tileDot.contr.Idx) : (tileDot.lhsIdx j q 1).val = (q ⟨0, by decide⟩).val :=
  tileDot.lhsIdx_val_of_single rfl j q
theorem rhs_contr (j : S256x4096.Idx) (q : tileDot.contr.Idx) : (tileDot.rhsIdx j q 0).val = (q ⟨0, by decide⟩).val :=
  tileDot.rhsIdx_val_of_single rfl j q
theorem rhs_col (j : S256x4096.Idx) (q : tileDot.contr.Idx) : (tileDot.rhsIdx j q 1).val = (j 1).val := by
  unfold DotDims.rhsIdx
  rw [dif_neg (show ¬(1 : Fin S1024x4096.rank) ∈ tileDot.rhsBatch by decide), dif_pos (show (1 : Fin S1024x4096.rank) ∈ tileDot.rhsNonContracting by decide)]
  rfl

/-- A product accumulated into zero, read at row `p`, column `n`: the plain sum over the contracted axis. -/
theorem tile_matmul (l : FVec Ideal S256x1024 .bf16) (r : FVec Ideal S1024x4096 .bf16) (p : Fin 256) (n : Fin 4096) :
    matmul tileDot none l r (constant (F := Ideal) S256x4096 .f32 0x00000000#32) (ix2 p n) = ∑ k : Fin 1024, l (ix2 p k) * r (ix2 k n) := by
  simp only [matmul]
  rw [Ideal.matmul_constant_zero_apply, ← Equiv.sum_comp (contrEquiv1 tileDot 1024 rfl rfl).symm]
  refine Finset.sum_congr rfl fun k _ => ?_
  have hk := contrEquiv1_symm_val tileDot 1024 rfl rfl k
  have el : tileDot.lhsIdx (ix2 p n) ((contrEquiv1 tileDot 1024 rfl rfl).symm k) = ix2 p k := funext fun a => Fin.ext (by
    match a with
    | ⟨0, _⟩ => exact lhs_row _ _
    | ⟨1, _⟩ => exact (lhs_contr _ _).trans hk)
  have er : tileDot.rhsIdx (ix2 p n) ((contrEquiv1 tileDot 1024 rfl rfl).symm k) = ix2 k n := funext fun a => Fin.ext (by
    match a with
    | ⟨0, _⟩ => exact (rhs_contr _ _).trans hk
    | ⟨1, _⟩ => exact rhs_col _ _)
  rw [el, er]

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The pre-activation the body forms at row `p` of the tile, gate column `n`. -/
theorem pre_apply (xb hb : Vec Ideal S256x1024 .f32) (wu wl : Vec Ideal S1024x4096 .bf16) (bb : Vec Ideal S1x4096 .f32)
    (p : Fin 256) (n : Fin 4096) :
    k0_pay1 xb hb wu wl bb (ix2 p n)
      = (∑ k : Fin 1024, xb (ix2 p k) * wu (ix2 k n)) + (∑ k : Fin 1024, hb (ix2 p k) * wl (ix2 k n)) + bb (ix2 (0 : Fin 1) n) := by
  unfold k0_pay1
  rw [addf_apply, addf_apply, shapeCast_self, shapeCast_self, shapeCast_self, tile_matmul, tile_matmul, broadcastTo_1b_ab_apply]
  rfl

/-- With the blocks the arrays' rows at batch row `r`, it is the specification's pre-activation at `r`. -/
theorem pre_eq (X H : SAct.Idx → EReal) (W : SWts.Idx → EReal) (B : Fin 4096 → EReal)
    (xb hb : Vec Ideal S256x1024 .f32) (wu wl : Vec Ideal S1024x4096 .bf16) (bb : Vec Ideal S1x4096 .f32)
    (r : Fin 4096) (p : Fin 256)
    (hx : ∀ k, xb (ix2 p k) = X (ix2 r k)) (hh : ∀ k, hb (ix2 p k) = H (ix2 r k))
    (hwu : ∀ k n, wu (ix2 k n) = W (ix2 (upper k) n)) (hwl : ∀ k n, wl (ix2 k n) = W (ix2 (lower k) n))
    (hbb : ∀ n, bb (ix2 (0 : Fin 1) n) = B n) (n : Fin 4096) :
    k0_pay1 xb hb wu wl bb (ix2 p n) = preact X H W B r n := by
  rw [pre_apply]; unfold preact; simp only [hx, hh, hwu, hwl, hbb]

/-- The new cell state the body stores, at row `p` of the tile and feature `q`. -/
theorem cell_eq (X H C : SAct.Idx → EReal) (W : SWts.Idx → EReal) (B : Fin 4096 → EReal)
    (xb hb cb : Vec Ideal S256x1024 .f32) (wu wl : Vec Ideal S1024x4096 .bf16) (bb : Vec Ideal S1x4096 .f32)
    (r : Fin 4096) (p : Fin 256)
    (hx : ∀ k, xb (ix2 p k) = X (ix2 r k)) (hh : ∀ k, hb (ix2 p k) = H (ix2 r k)) (hc : ∀ q, cb (ix2 p q) = C (ix2 r q))
    (hwu : ∀ k n, wu (ix2 k n) = W (ix2 (upper k) n)) (hwl : ∀ k n, wl (ix2 k n) = W (ix2 (lower k) n))
    (hbb : ∀ n, bb (ix2 (0 : Fin 1) n) = B n) (q : Fin 1024) :
    k0_pay2 xb hb wu wl bb cb (ix2 p q) = cellAt X H C W B r q := by
  unfold k0_pay2
  rw [addf_apply, mulf_apply, mulf_apply, logistic_apply, logistic_apply, tanh_apply,
    slice2_axis1_apply 0 _ _ p q (colF q) (Nat.zero_add _).symm, slice2_axis1_apply 1024 _ _ p q (colI q) rfl,
    slice2_axis1_apply 2048 _ _ p q (colG q) rfl,
    pre_eq X H W B xb hb wu wl bb r p hx hh hwu hwl hbb, pre_eq X H W B xb hb wu wl bb r p hx hh hwu hwl hbb,
    pre_eq X H W B xb hb wu wl bb r p hx hh hwu hwl hbb, hc]
  rfl

/-- The new hidden state the body stores, at row `p` of the tile and feature `q`. -/
theorem hidden_eq (X H C : SAct.Idx → EReal) (W : SWts.Idx → EReal) (B : Fin 4096 → EReal)
    (xb hb cb : Vec Ideal S256x1024 .f32) (wu wl : Vec Ideal S1024x4096 .bf16) (bb : Vec Ideal S1x4096 .f32)
    (r : Fin 4096) (p : Fin 256)
    (hx : ∀ k, xb (ix2 p k) = X (ix2 r k)) (hh : ∀ k, hb (ix2 p k) = H (ix2 r k)) (hc : ∀ q, cb (ix2 p q) = C (ix2 r q))
    (hwu : ∀ k n, wu (ix2 k n) = W (ix2 (upper k) n)) (hwl : ∀ k n, wl (ix2 k n) = W (ix2 (lower k) n))
    (hbb : ∀ n, bb (ix2 (0 : Fin 1) n) = B n) (q : Fin 1024) :
    k0_pay3 xb hb wu wl bb cb (ix2 p q) = hiddenAt X H C W B r q := by
  unfold k0_pay3
  rw [mulf_apply, logistic_apply, tanh_apply, slice2_axis1_apply 3072 _ _ p q (colO q) rfl,
    pre_eq X H W B xb hb wu wl bb r p hx hh hwu hwl hbb,
    cell_eq X H C W B xb hb cb wu wl bb r p hx hh hc hwu hwl hbb]
  rfl

end Cert.KernelIdeal.Payload

end
-- ==== Proof.KIValue.lean ====
/-
  From tiles to arrays: what the two result arrays of `KernelIdeal` hold after the run, at the ideal values.

  Tile `t` covers batch rows 256·t … 256·t + 255. There the body is handed rows 256·t + p of x, h and c, the whole
  joined weight matrix (its upper half the rows that meet x, its lower half those that meet h) and the whole bias
  row, so what it writes back at `t` is the specification's hidden and cell arrays read through the tile
  (`flushed_hidden`, `flushed_cell`). The 16 tiles cover every row, so each result array IS the specification's
  array (`final_hidden`, `final_cell`) of the region-entry contents — the arguments as launched, the four gate
  weights joined side by side and the four biases joined end to end.
-/
import proofs.«146667_j14027363189407_2_alg».proof.Proof.KIFrame
import proofs.«146667_j14027363189407_2_alg».proof.Proof.KIPayload
import Idealize.ShloMosaic.Lib.Pipeline.Value
import Idealize.ShloMosaic.Lib.StableHlo.Run

noncomputable section

namespace Cert.KernelIdeal.Arrays

open Cert.KernelIdeal Cert.KernelIdeal.Gen Cert.KernelIdeal.Tiles Cert.KernelIdeal.Payload Cert.LstmSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the joining operations leave -/

/-- The four gate weight matrices side by side. -/
def joinedW (a3 a5 a7 a9 : S2048x1024.Idx → EReal) : SWts.Idx → EReal :=
  concatenate S2048x4096 1 [⟨S2048x1024, a3⟩, ⟨S2048x1024, a5⟩, ⟨S2048x1024, a7⟩, ⟨S2048x1024, a9⟩] concatenates_S2048x1024_S2048x1024_S2048x1024_S2048x1024_S2048x4096_d1

/-- The four gate biases end to end, by gate column. -/
def joinedB (a4 a6 a8 a10 : S1024.Idx → EReal) : Fin 4096 → EReal := fun n =>
  concatenate S4096 0 [⟨S1024, a4⟩, ⟨S1024, a6⟩, ⟨S1024, a8⟩, ⟨S1024, a10⟩] concatenates_S1024_S1024_S1024_S1024_S4096_d0 (ix1 n)

/-- The region finds the joined weights in its weight window's array (their rounding to bf16 is the identity on
    extended reals). -/
theorem V_weights (c : Dev nD) :
    (V m c main_v1 : S2048x4096.Idx → EReal) = joinedW (m ((c : Thread nD τ).loc main_arg3)) (m ((c : Thread nD τ).loc main_arg5)) (m ((c : Thread nD τ).loc main_arg7)) (m ((c : Thread nD τ).loc main_arg9)) := by
  dsimp only [V, hostOps0]; after_results; rfl

/-- The region finds the joined biases, as one row, in its bias window's array. -/
theorem V_bias (c : Dev nD) (n : Fin 4096) :
    (V m c main_v3 : S1x4096.Idx → EReal) (ix2 (0 : Fin 1) n) = joinedB (m ((c : Thread nD τ).loc main_arg4)) (m ((c : Thread nD τ).loc main_arg6)) (m ((c : Thread nD τ).loc main_arg8)) (m ((c : Thread nD τ).loc main_arg10)) n := by
  have e : (V m c main_v3 : S1x4096.Idx → EReal)
      = shapeCast S1x4096 (concatenate S4096 0 [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩] concatenates_S1024_S1024_S1024_S1024_S4096_d0) shapeCasts_S4096_S1x4096 := by
    dsimp only [V, hostOps0]; after_results; rfl
  rw [e]
  exact shapeCast_a_1a_apply _ _ (0 : Fin 1) n

/-! ## The blocks, read at an index -/

theorem hz : (![0, 0] : Fin 2 → Nat) = fun _ => 0 := funext fun a => by fin_cases a <;> rfl

/-- The printed index maps over the grid: x, h, c and the two results move one tile down per point, the weights
    and the bias row stay. -/
theorem idx_tiles : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Batch row `p` of tile `t`. -/
def row (t : Fin cfg0.N) (p : Fin 256) : Fin 4096 :=
  ⟨256 * t.val + p.val, by have h := t.isLt; have hN : cfg0.N = 16 := N_0; omega⟩

theorem read_x (c : Dev nD) (t : Fin cfg0.N) (p : Fin 256) (k : Fin 1024) :
    iblk m c 0 t (ix2 p k) = V m c main_arg0 (ix2 (row t p) k) := by
  obtain ⟨e0, e1, -⟩ := idx_tiles t
  show V m c main_arg0 (((cfg0.win 0).blk t).view.emb (ix2 p k)) = _
  have h : ((cfg0.win 0).blk t).view.emb (ix2 p k) = ix2 (row t p) k := by
    funext a; apply Fin.ext
    match a with
    | ⟨0, _⟩ => show win0_0.index t (0 : Fin 2) * 256 + 1 * p.val = 256 * t.val + p.val; omega
    | ⟨1, _⟩ => show win0_0.index t (1 : Fin 2) * 1024 + 1 * k.val = k.val; omega
  rw [h]

theorem read_h (c : Dev nD) (t : Fin cfg0.N) (p : Fin 256) (k : Fin 1024) :
    iblk m c 1 t (ix2 p k) = V m c main_arg1 (ix2 (row t p) k) := by
  obtain ⟨-, -, e0, e1, -⟩ := idx_tiles t
  show V m c main_arg1 (((cfg0.win 1).blk t).view.emb (ix2 p k)) = _
  have h : ((cfg0.win 1).blk t).view.emb (ix2 p k) = ix2 (row t p) k := by
    funext a; apply Fin.ext
    match a with
    | ⟨0, _⟩ => show win0_1.index t (0 : Fin 2) * 256 + 1 * p.val = 256 * t.val + p.val; omega
    | ⟨1, _⟩ => show win0_1.index t (1 : Fin 2) * 1024 + 1 * k.val = k.val; omega
  rw [h]

theorem read_c (c : Dev nD) (t : Fin cfg0.N) (p : Fin 256) (k : Fin 1024) :
    iblk m c 2 t (ix2 p k) = V m c main_arg2 (ix2 (row t p) k) := by
  obtain ⟨-, -, -, -, e0, e1, -⟩ := idx_tiles t
  show V m c main_arg2 (((cfg0.win 2).blk t).view.emb (ix2 p k)) = _
  have h : ((cfg0.win 2).blk t).view.emb (ix2 p k) = ix2 (row t p) k := by
    funext a; apply Fin.ext
    match a with
    | ⟨0, _⟩ => show win0_2.index t (0 : Fin 2) * 256 + 1 * p.val = 256 * t.val + p.val; omega
    | ⟨1, _⟩ => show win0_2.index t (1 : Fin 2) * 1024 + 1 * k.val = k.val; omega
  rw [h]

/-- The upper half of the weights' block is rows 0…1023 of the joined matrix, -/
theorem read_upper (c : Dev nD) (t : Fin cfg0.N) (k : Fin 1024) (n : Fin 4096) :
    View.ld (iblk m c 3 t) rUpper (ix2 k n) = V m c main_v1 (ix2 (upper k) n) := by
  obtain ⟨-, -, -, -, -, -, e0, e1, -⟩ := idx_tiles t
  show V m c main_v1 (((cfg0.win 3).blk t).view.emb (rUpper.idx (ix2 k n))) = _
  have h : ((cfg0.win 3).blk t).view.emb (rUpper.idx (ix2 k n)) = ix2 (upper k) n := by
    funext a; apply Fin.ext
    match a with
    | ⟨0, _⟩ => show win0_3.index t (0 : Fin 2) * 2048 + 1 * (0 + 1 * k.val) = k.val; omega
    | ⟨1, _⟩ => show win0_3.index t (1 : Fin 2) * 4096 + 1 * (0 + 1 * n.val) = n.val; omega
  rw [h]

/-- and the lower half rows 1024…2047. -/
theorem read_lower (c : Dev nD) (t : Fin cfg0.N) (k : Fin 1024) (n : Fin 4096) :
    View.ld (iblk m c 3 t) rLower (ix2 k n) = V m c main_v1 (ix2 (lower k) n) := by
  obtain ⟨-, -, -, -, -, -, e0, e1, -⟩ := idx_tiles t
  show V m c main_v1 (((cfg0.win 3).blk t).view.emb (rLower.idx (ix2 k n))) = _
  have h : ((cfg0.win 3).blk t).view.emb (rLower.idx (ix2 k n)) = ix2 (lower k) n := by
    funext a; apply Fin.ext
    match a with
    | ⟨0, _⟩ => show win0_3.index t (0 : Fin 2) * 2048 + 1 * (1024 + 1 * k.val) = 1024 + k.val; omega
    | ⟨1, _⟩ => show win0_3.index t (1 : Fin 2) * 4096 + 1 * (0 + 1 * n.val) = n.val; omega
  rw [h]

theorem read_bias (c : Dev nD) (t : Fin cfg0.N) (n : Fin 4096) :
    iblk m c 4 t (ix2 (0 : Fin 1) n) = V m c main_v3 (ix2 (0 : Fin 1) n) := by
  obtain ⟨-, -, -, -, -, -, -, -, e0, e1, -⟩ := idx_tiles t
  show V m c main_v3 (((cfg0.win 4).blk t).view.emb (ix2 (0 : Fin 1) n)) = _
  have h : ((cfg0.win 4).blk t).view.emb (ix2 (0 : Fin 1) n) = ix2 (0 : Fin 1) n := by
    funext a; apply Fin.ext
    match a with
    | ⟨0, _⟩ => show win0_4.index t (0 : Fin 2) * 1 + 1 * 0 = 0; omega
    | ⟨1, _⟩ => show win0_4.index t (1 : Fin 2) * 4096 + 1 * n.val = n.val; omega
  rw [h]

/-! ## What a tile writes back -/

/-- The region-entry arrays the specification is read at. -/
abbrev Xa (c : Dev nD) : SAct.Idx → EReal := V m c main_arg0
abbrev Ha (c : Dev nD) : SAct.Idx → EReal := V m c main_arg1
abbrev Ca (c : Dev nD) : SAct.Idx → EReal := V m c main_arg2
abbrev Wa (c : Dev nD) : SWts.Idx → EReal := V m c main_v1
abbrev Ba (c : Dev nD) : Fin 4096 → EReal := fun n => (V m c main_v3 : S1x4096.Idx → EReal) (ix2 (0 : Fin 1) n)

theorem emb_hidden (t : Fin cfg0.N) (p : Fin 256) (q : Fin 1024) :
    ((cfg0.win 5).blk t).view.emb (ix2 p q) = ix2 (row t p) q := by
  obtain ⟨-, -, -, -, -, -, -, -, -, -, e0, e1, -⟩ := idx_tiles t
  funext a; apply Fin.ext
  match a with
  | ⟨0, _⟩ => show win0_5.index t (0 : Fin 2) * 256 + 1 * p.val = 256 * t.val + p.val; omega
  | ⟨1, _⟩ => show win0_5.index t (1 : Fin 2) * 1024 + 1 * q.val = q.val; omega

theorem emb_cell (t : Fin cfg0.N) (p : Fin 256) (q : Fin 1024) :
    ((cfg0.win 6).blk t).view.emb (ix2 p q) = ix2 (row t p) q := by
  obtain ⟨-, -, -, -, -, -, -, -, -, -, -, -, e0, e1⟩ := idx_tiles t
  funext a; apply Fin.ext
  match a with
  | ⟨0, _⟩ => show win0_6.index t (0 : Fin 2) * 256 + 1 * p.val = 256 * t.val + p.val; omega
  | ⟨1, _⟩ => show win0_6.index t (1 : Fin 2) * 1024 + 1 * q.val = q.val; omega

/-- What tile `t` writes back to the first result is the specification's hidden array read through the tile. -/
theorem flushed_hidden (c : Dev nD) (t : Fin cfg0.N) :
    (dats m 0 c).flushed 5 t = ((cfg0.win 5).blk t).view.read (Elt Ideal) (hidden (Xa m c) (Ha m c) (Ca m c) (Wa m c) (Ba m c)) := by
  show (cfg0.win 5).cut (grid0.coords t) ((dats m 0 c).after 5 t) = _
  rw [after5]
  unfold hTile
  rw [View.canon_unit_zero hz]
  simp only [View.ld_unit_zero (S := S256x1024) hz, View.ld_unit_zero (S := S1x4096) hz]
  funext j
  obtain ⟨p, q, rfl⟩ : ∃ (p : Fin 256) (q : Fin 1024), j = ix2 p q := ⟨j 0, j 1, eq_ix2 j⟩
  show _ = hidden (Xa m c) (Ha m c) (Ca m c) (Wa m c) (Ba m c) (((cfg0.win 5).blk t).view.emb (ix2 p q))
  rw [emb_hidden, hidden_ix2]
  exact hidden_eq (Xa m c) (Ha m c) (Ca m c) (Wa m c) (Ba m c) (iblk m c 0 t) (iblk m c 1 t) (iblk m c 2 t)
    (View.ld (iblk m c 3 t) rUpper) (View.ld (iblk m c 3 t) rLower) (iblk m c 4 t) (row t p) p
    (fun k => read_x m c t p k) (fun k => read_h m c t p k) (fun k => read_c m c t p k)
    (fun k n => read_upper m c t k n) (fun k n => read_lower m c t k n) (fun n => read_bias m c t n) q

/-- What tile `t` writes back to the second result is the specification's cell array read through the tile. -/
theorem flushed_cell (c : Dev nD) (t : Fin cfg0.N) :
    (dats m 0 c).flushed 6 t = ((cfg0.win 6).blk t).view.read (Elt Ideal) (cell (Xa m c) (Ha m c) (Ca m c) (Wa m c) (Ba m c)) := by
  show (cfg0.win 6).cut (grid0.coords t) ((dats m 0 c).after 6 t) = _
  rw [after6]
  unfold cTile
  rw [View.canon_unit_zero hz]
  simp only [View.ld_unit_zero (S := S256x1024) hz, View.ld_unit_zero (S := S1x4096) hz]
  funext j
  obtain ⟨p, q, rfl⟩ : ∃ (p : Fin 256) (q : Fin 1024), j = ix2 p q := ⟨j 0, j 1, eq_ix2 j⟩
  show _ = cell (Xa m c) (Ha m c) (Ca m c) (Wa m c) (Ba m c) (((cfg0.win 6).blk t).view.emb (ix2 p q))
  rw [emb_cell, cell_ix2]
  exact cell_eq (Xa m c) (Ha m c) (Ca m c) (Wa m c) (Ba m c) (iblk m c 0 t) (iblk m c 1 t) (iblk m c 2 t)
    (View.ld (iblk m c 3 t) rUpper) (View.ld (iblk m c 3 t) rLower) (iblk m c 4 t) (row t p) p
    (fun k => read_x m c t p k) (fun k => read_h m c t p k) (fun k => read_c m c t p k)
    (fun k n => read_upper m c t k n) (fun k n => read_lower m c t k n) (fun n => read_bias m c t n) q

/-! ## The tiles cover the arrays -/

theorem mem_tile5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4_0).slice (win0_5.rect t)).set ↔ _
  rw [View.set_slice_whole, Rect.mem_set_unit]
  exact Iff.rfl

theorem mem_tile6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_1).slice (win0_6.rect t)).set ↔ _
  rw [View.set_slice_whole, Rect.mem_set_unit]
  exact Iff.rfl

/-- The tile that holds batch row `r` is `r / 256`. -/
def tileOf (i : S4096x1024.Idx) : Fin cfg0.N :=
  ⟨(i 0).val / 256, by have h : (i 0).val < 4096 := (i 0).isLt; have hN : cfg0.N = 16 := N_0; omega⟩

theorem cover5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have ht : (tileOf i).val = (i 0).val / 256 := rfl
  obtain ⟨-, -, -, -, -, -, -, -, -, -, e0, e1, -⟩ := idx_tiles (tileOf i)
  refine ⟨tileOf i, flush0_5 _, ?_⟩
  rw [mem_tile5]
  intro a
  match a with
  | ⟨0, _⟩ => show win0_5.index (tileOf i) (0 : Fin 2) * 256 ≤ (i 0).val ∧ (i 0).val < win0_5.index (tileOf i) (0 : Fin 2) * 256 + 256; omega
  | ⟨1, _⟩ => show win0_5.index (tileOf i) (1 : Fin 2) * 1024 ≤ (i 1).val ∧ (i 1).val < win0_5.index (tileOf i) (1 : Fin 2) * 1024 + 1024; omega

theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have ht : (tileOf i).val = (i 0).val / 256 := rfl
  obtain ⟨-, -, -, -, -, -, -, -, -, -, -, -, e0, e1⟩ := idx_tiles (tileOf i)
  refine ⟨tileOf i, flush0_6 _, ?_⟩
  rw [mem_tile6]
  intro a
  match a with
  | ⟨0, _⟩ => show win0_6.index (tileOf i) (0 : Fin 2) * 256 ≤ (i 0).val ∧ (i 0).val < win0_6.index (tileOf i) (0 : Fin 2) * 256 + 256; omega
  | ⟨1, _⟩ => show win0_6.index (tileOf i) (1 : Fin 2) * 1024 ≤ (i 1).val ∧ (i 1).val < win0_6.index (tileOf i) (1 : Fin 2) * 1024 + 1024; omega

/-! ## The arrays after the run -/

theorem final_hidden (c : Dev nD) :
    (dats m 0 c).arrAt 5 cfg0.N = hidden (Xa m c) (Ha m c) (Ca m c) (Wa m c) (Ba m c) :=
  (dats m 0 c).arrAt_eq_of_cover 5 _ (fun t _ => flushed_hidden m c t) cover5

theorem final_cell (c : Dev nD) :
    (dats m 0 c).arrAt 6 cfg0.N = cell (Xa m c) (Ha m c) (Ca m c) (Wa m c) (Ba m c) :=
  (dats m 0 c).arrAt_eq_of_cover 6 _ (fun t _ => flushed_cell m c t) cover6

/-- The region-entry arrays, in terms of the launch memory. -/
theorem entry_arrays (c : Dev nD) :
    Xa m c = (m ((c : Thread nD τ).loc main_arg0)) ∧ Ha m c = (m ((c : Thread nD τ).loc main_arg1)) ∧ Ca m c = (m ((c : Thread nD τ).loc main_arg2))
    ∧ Wa m c = joinedW (m ((c : Thread nD τ).loc main_arg3)) (m ((c : Thread nD τ).loc main_arg5)) (m ((c : Thread nD τ).loc main_arg7)) (m ((c : Thread nD τ).loc main_arg9))
    ∧ Ba m c = joinedB (m ((c : Thread nD τ).loc main_arg4)) (m ((c : Thread nD τ).loc main_arg6)) (m ((c : Thread nD τ).loc main_arg8)) (m ((c : Thread nD τ).loc main_arg10)) :=
  ⟨V_main_arg0 m c, V_main_arg1 m c, V_main_arg2 m c, V_weights m c, funext fun n => V_bias m c n⟩

/-- The run, read: every weakly fair execution terminates with the first result at the specification's hidden
    array and the second at its cell array, of the launch contents of the arguments, which end unchanged. -/
theorem run : θ_run defs (onTc (τ := τ) (main (F := Ideal))) ⟨m, fun _ => 0, ρ⟩ fun r => ∀ c : Dev nD,
      r.2.mem ((c : Thread nD τ).loc main_v4_0) = hidden (m ((c : Thread nD τ).loc main_arg0)) (m ((c : Thread nD τ).loc main_arg1)) (m ((c : Thread nD τ).loc main_arg2)) (joinedW (m ((c : Thread nD τ).loc main_arg3)) (m ((c : Thread nD τ).loc main_arg5)) (m ((c : Thread nD τ).loc main_arg7)) (m ((c : Thread nD τ).loc main_arg9))) (joinedB (m ((c : Thread nD τ).loc main_arg4)) (m ((c : Thread nD τ).loc main_arg6)) (m ((c : Thread nD τ).loc main_arg8)) (m ((c : Thread nD τ).loc main_arg10)))
      ∧ r.2.mem ((c : Thread nD τ).loc main_v4_1) = cell (m ((c : Thread nD τ).loc main_arg0)) (m ((c : Thread nD τ).loc main_arg1)) (m ((c : Thread nD τ).loc main_arg2)) (joinedW (m ((c : Thread nD τ).loc main_arg3)) (m ((c : Thread nD τ).loc main_arg5)) (m ((c : Thread nD τ).loc main_arg7)) (m ((c : Thread nD τ).loc main_arg9))) (joinedB (m ((c : Thread nD τ).loc main_arg4)) (m ((c : Thread nD τ).loc main_arg6)) (m ((c : Thread nD τ).loc main_arg8)) (m ((c : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨eX, eH, eC, eW, eB⟩ := entry_arrays m c
    refine ⟨((h c).1 5).trans ?_, ((h c).1 6).trans ?_, args_kept m (dats m) (A_eq m) r h c⟩
    · rw [final_hidden, eX, eH, eC, eW, eB]
    · rw [final_cell, eX, eH, eC, eW, eB])
    (run_main m ρ)

end Cert.KernelIdeal.Arrays

end
-- ==== Proof.RefIsSpec.lean ====
/-
  The reference program's two results are the specification's hidden and cell arrays.

  The reference joins x and h side by side into [4096, 2048], joins the four gate weights into W and the four biases
  into one vector, takes ONE product [x | h] · W, adds the biases along every row, cuts the four gates' column blocks,
  and spells each sigmoid as 1 / (1 + exp(−z)). Read at an index: the contraction over the 2048 joined positions
  splits into the part that meets x and the part that meets h (`sum_joined`), a joined position below 1024 reads x
  and one from 1024 on reads h, and the spelt-out sigmoid is the logistic function (the word 0x3F800000 is 1).
-/
import proofs.«146667_j14027363189407_2_alg».proof.Proof.Gen.ReferenceIdeal.Read
import proofs.«146667_j14027363189407_2_alg».proof.Proof.LstmSpec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Spec

open Cert.ReferenceIdeal Cert.ReferenceIdeal.Gen Cert.ReferenceIdeal.Read Idealize.ShloMosaic Idealize.ShloMosaic.ValueIdx Cert.LstmSpec

/-- A joined position below 1024 reads x. -/
theorem joined_upper (x0 x1 : (⟨S4096x1024, .f32⟩ : BufTy).Contents (Elt Ideal)) (r : Fin 4096) (k : Fin 1024) :
    val_main_v0 (F := Ideal) x0 x1 (ix2 r (upper k)) = x0 (ix2 r k) := by
  unfold val_main_v0
  exact concatenate_pair_apply_left (1 : Fin 2) x0 x1 _ (ix2 r (upper k)) rfl (ix2 r k)
    (fun b => by match b with | ⟨0, _⟩ => rfl | ⟨1, _⟩ => rfl)

/-- A joined position from 1024 on reads h. -/
theorem joined_lower (x0 x1 : (⟨S4096x1024, .f32⟩ : BufTy).Contents (Elt Ideal)) (r : Fin 4096) (k : Fin 1024) :
    val_main_v0 (F := Ideal) x0 x1 (ix2 r (lower k)) = x1 (ix2 r k) := by
  unfold val_main_v0
  exact concatenate_pair_apply_right (1 : Fin 2) x0 x1 _ (ix2 r (lower k)) rfl rfl (ix2 r k)
    (fun b hb => by match b with | ⟨0, _⟩ => rfl | ⟨1, _⟩ => exact absurd rfl hb)
    (by show k.val + 1024 = 1024 + k.val; omega)

/-- The joined weights, as the specification's `W`. -/
abbrev Wj (x3 x5 x7 x9 : (⟨S2048x1024, .f32⟩ : BufTy).Contents (Elt Ideal)) : SWts.Idx → EReal := val_main_v1 (F := Ideal) x3 x5 x7 x9
/-- The joined biases, by gate column. -/
abbrev Bj (x4 x6 x8 x10 : (⟨S1024, .f32⟩ : BufTy).Contents (Elt Ideal)) : Fin 4096 → EReal := fun n => val_main_v2 (F := Ideal) x4 x6 x8 x10 (ix1 n)

/-- The reference's pre-activation at batch row `r`, gate column `n`. -/
theorem pre_ref (x0 x1 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) (r n : Fin 4096) :
    val_main_v6 (F := Ideal) x0 x1 x3 x4 x5 x6 x7 x8 x9 x10 (ix2 r n) = preact x0 x1 (Wj x3 x5 x7 x9) (Bj x4 x6 x8 x10) r n := by
  rw [val_main_v6_apply, val_main_v3_apply, val_main_v5_apply, val_main_v4_apply]
  have el : ∀ k : Fin 2048, lidx_main_v3 (ix2 r n) k = ix2 r k := fun k => funext fun a => Fin.ext (by
    match a with | ⟨0, _⟩ => rfl | ⟨1, _⟩ => rfl)
  have er : ∀ k : Fin 2048, ridx_main_v3 (ix2 r n) k = ix2 k n := fun k => funext fun a => Fin.ext (by
    match a with | ⟨0, _⟩ => rfl | ⟨1, _⟩ => rfl)
  have eb : idx_main_v4 (idx_main_v5 (ix2 r n)) = ix1 n := funext fun a => Fin.ext (by
    match a with | ⟨0, _⟩ => rfl)
  simp only [el, er, eb, Ideal.addf_def]
  rw [sum_joined]
  unfold preact
  simp only [joined_upper, joined_lower]

/-- The sigmoid as the reference spells it is the logistic function. -/
theorem sigmoid_spelt (z : EReal) :
    Ideal.div (Ideal.ofBits .f32 0x3F800000#32) (Ideal.ofBits .f32 0x3F800000#32 + Ideal.exp (-z)) = Ideal.logistic z := by
  rw [Ideal.ofBits_one_f32]; rfl

/-- The reference's new cell state is the specification's. -/
theorem cell_ref (x0 x1 x2 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v32 (F := Ideal) x0 x1 x2 x3 x4 x5 x6 x7 x8 x9 x10 = cell x0 x1 x2 (Wj x3 x5 x7 x9) (Bj x4 x6 x8 x10) := by
  funext i
  obtain ⟨r, q, rfl⟩ : ∃ (r : Fin 4096) (q : Fin 1024), i = ix2 r q := ⟨i 0, i 1, eq_ix2 i⟩
  have e7 : idx_main_v7 (ix2 r q) = ix2 r (colF q) := funext fun a => Fin.ext (by match a with | ⟨0, _⟩ => rfl | ⟨1, _⟩ => rfl)
  have e8 : idx_main_v8 (ix2 r q) = ix2 r (colI q) := funext fun a => Fin.ext (by match a with | ⟨0, _⟩ => rfl | ⟨1, _⟩ => rfl)
  have e9 : idx_main_v9 (ix2 r q) = ix2 r (colG q) := funext fun a => Fin.ext (by match a with | ⟨0, _⟩ => rfl | ⟨1, _⟩ => rfl)
  rw [cell_ix2]
  unfold cellAt
  rw [val_main_v32_apply, val_main_v30_apply, val_main_v31_apply, val_main_v16_apply, val_main_v22_apply, val_main_v23_apply,
    val_main_v15_apply, val_main_v14_apply, val_main_v21_apply, val_main_v20_apply, val_main_v13_apply, val_main_v19_apply,
    val_main_v12_apply, val_main_v18_apply, val_main_v11_apply, val_main_v17_apply, val_main_v7_apply, val_main_v8_apply, val_main_v9_apply,
    val_main_cst_apply, val_main_cst_0_apply, val_main_cst_1_apply, val_main_cst_2_apply, e7, e8, e9,
    pre_ref, pre_ref, pre_ref]
  simp only [Ideal.addf_def, Ideal.mulf_def, Ideal.hostDivf_def, Ideal.hostUnary_exp_def, Ideal.hostUnary_tanh_def, Ideal.hostNegf_def,
    Ideal.negf_def, Ideal.ofBits_def, sigmoid_spelt]

/-- The reference's new hidden state is the specification's. -/
theorem hidden_ref (x0 x1 x2 : (⟨S4096x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v34 (F := Ideal) x0 x1 x2 x3 x4 x5 x6 x7 x8 x9 x10 = hidden x0 x1 x2 (Wj x3 x5 x7 x9) (Bj x4 x6 x8 x10) := by
  funext i
  obtain ⟨r, q, rfl⟩ : ∃ (r : Fin 4096) (q : Fin 1024), i = ix2 r q := ⟨i 0, i 1, eq_ix2 i⟩
  have e10 : idx_main_v10 (ix2 r q) = ix2 r (colO q) := funext fun a => Fin.ext (by match a with | ⟨0, _⟩ => rfl | ⟨1, _⟩ => rfl)
  rw [hidden_ix2]
  unfold hiddenAt
  rw [val_main_v34_apply, val_main_v33_apply, val_main_v29_apply, val_main_v28_apply, val_main_v27_apply, val_main_v26_apply,
    val_main_v25_apply, val_main_v24_apply, val_main_v10_apply, val_main_cst_3_apply, val_main_cst_4_apply, e10, pre_ref,
    cell_ref, cell_ix2]
  simp only [Ideal.addf_def, Ideal.mulf_def, Ideal.hostDivf_def, Ideal.hostUnary_exp_def, Ideal.hostUnary_tanh_def, Ideal.hostNegf_def,
    Ideal.negf_def, Ideal.ofBits_def, sigmoid_spelt]

end Cert.ReferenceIdeal.Spec

end
-- ==== Proof.lean ====
/-
  The kernel computes one LSTM cell step over a batch of 4096 rows in 16 tiles of 256: per tile,
  gates = x·W[0:1024] + h·W[1024:2048] + b with W the four gate weight matrices joined side by side (rounded to bf16,
  the identity on extended reals) and b the four biases joined end to end, then c' = σ(f)·c + σ(i)·tanh(g) and
  h' = σ(o)·tanh(c'). The reference joins x and h instead and takes ONE product [x | h]·W. On the extended reals both
  are the specification `Cert.LstmSpec.hidden` / `cell` of the argument arrays: the contraction over the 2048
  joined positions splits into its two halves by associativity and commutativity of + alone, so the precondition
  (finite inputs) is never opened.

  The three frames: each kernel program runs tile by tile (Proof/KFrame.lean at the word level, Proof/KIFrame.lean
  idealized); the reference is its run with the results dropped. The idealization rewrote nothing, so `preserves` is
  `True`. `algebraic`: the kernel's result arrays are the specification's (Proof/KIValue.lean, from what each tile
  writes back, Proof/KIPayload.lean), and so are the reference's (Proof/RefIsSpec.lean), at arguments that agree.
-/
import proofs.«146667_j14027363189407_2_alg».proof.Defs
import proofs.«146667_j14027363189407_2_alg».proof.Proof.Gen.Kernel
import proofs.«146667_j14027363189407_2_alg».proof.Proof.Gen.KernelIdeal
import proofs.«146667_j14027363189407_2_alg».proof.Proof.Gen.ReferenceIdeal
import proofs.«146667_j14027363189407_2_alg».proof.Proof.Gen.Pre_finite_inputs
import proofs.«146667_j14027363189407_2_alg».proof.Proof.Gen.ReferenceIdeal.Run
import proofs.«146667_j14027363189407_2_alg».proof.Proof.Gen.ReferenceIdeal.Read
import proofs.«146667_j14027363189407_2_alg».proof.Proof.KFrame
import proofs.«146667_j14027363189407_2_alg».proof.Proof.KIFrame
import proofs.«146667_j14027363189407_2_alg».proof.Proof.KIValue
import proofs.«146667_j14027363189407_2_alg».proof.Proof.RefIsSpec
import Idealize.ShloMosaic.Adequacy
import Idealize.ShloMosaic.Init

noncomputable section

namespace Cert.Proof

open Idealize.ShloMosaic Idealize.ShloMosaic.TcCoe Idealize.SL.Sem Cert.LstmSpec

theorem frame_k : Cert.frame_Kernel := fun m ρ _ => Cert.Kernel.Tiles.frame m ρ
theorem frame_ki : Cert.frame_KernelIdeal := fun m ρ _ => Cert.KernelIdeal.Tiles.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten on the way to the idealized kernel. -/
theorem preserves : Cert.preserves_Kernel_KernelIdeal := trivial

/-- Both programs join the gate weights, and the gate biases, by the same operation of the same arrays. -/
theorem joinedW_eq (a3 a5 a7 a9 : Cert.KernelIdeal.S2048x1024.Idx → EReal) :
    Cert.ReferenceIdeal.Spec.Wj a3 a5 a7 a9 = Cert.KernelIdeal.Arrays.joinedW a3 a5 a7 a9 := rfl
theorem joinedB_eq (a4 a6 a8 a10 : Cert.KernelIdeal.S1024.Idx → EReal) :
    Cert.ReferenceIdeal.Spec.Bj a4 a6 a8 a10 = Cert.KernelIdeal.Arrays.joinedB a4 a6 a8 a10 := rfl

/-- From memories that agree on the arguments both programs end with the specification's hidden array (returned
    twice) and cell array of those arguments. -/
theorem algebraic : Cert.algebraic_KernelIdeal_ReferenceIdeal := by
  intro m ρ m' ρ' _ hagree
  refine ⟨fun c => hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Arrays.joinedW (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.KernelIdeal.Arrays.joinedB (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))), fun c => hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Arrays.joinedW (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.KernelIdeal.Arrays.joinedB (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))), fun c => cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Arrays.joinedW (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.KernelIdeal.Arrays.joinedB (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))),
    (θ_run Cert.KernelIdeal.defs _ _).mono (fun r h c => ⟨(h c).1, (h c).1, (h c).2.1, (h c).2.2⟩) (Cert.KernelIdeal.Arrays.run m ρ), ?_⟩
  refine (θ_run Cert.ReferenceIdeal.defs _ _).mono (fun r h c => ?_) (Cert.ReferenceIdeal.Value.run (F := Ideal) m' ρ')
  obtain ⟨a0, a1, a2, a3, a4, a5, a6, a7, a8, a9, a10⟩ := hagree c
  have eh : Cert.ReferenceIdeal.Value.res_main_v34 (F := Ideal) m' c = hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Arrays.joinedW (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) (Cert.KernelIdeal.Arrays.joinedB (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))) := by
    rw [Cert.ReferenceIdeal.Read.val_main_v34_eq, Cert.ReferenceIdeal.Spec.hidden_ref, joinedW_eq, joinedB_eq, a0, a1, a2, a3, a4, a5, a6, a7, a8, a9, a10]
  refine ⟨(h c).1.trans eh, (h c).2.1.trans eh, ?_, (h c).2.2.2⟩
  refine (h c).2.2.1.trans ?_
  rw [Cert.ReferenceIdeal.Read.val_main_v32_eq, Cert.ReferenceIdeal.Spec.cell_ref, joinedW_eq, joinedB_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
